-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x16 : Shape := ⟨2, ![64, 16]⟩
abbrev S16 : Shape := ⟨1, ![16]⟩
abbrev S16x10 : Shape := ⟨2, ![16, 10]⟩
abbrev S10 : Shape := ⟨1, ![10]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x16 : S_.BroadcastsInDim S64x16 (![] : Fin 0 → Fin S64x16.rank)
  reducesTo_S64x16_S_d0_1 : S64x16.ReducesTo [0, 1] S_
  bcast_S_S16 : S_.BroadcastsInDim S16 (![] : Fin 0 → Fin S16.rank)
  reducesTo_S16_S_d0 : S16.ReducesTo [0] S_
  bcast_S_S16x10 : S_.BroadcastsInDim S16x10 (![] : Fin 0 → Fin S16x10.rank)
  reducesTo_S16x10_S_d0_1 : S16x10.ReducesTo [0, 1] S_
  bcast_S_S10 : S_.BroadcastsInDim S10 (![] : Fin 0 → Fin S10.rank)
  reducesTo_S10_S_d0 : S10.ReducesTo [0] S_

variable [Facts]

def fn_part3 {F : FTy → Type} [FloatOps F] (main_arg11 : FVec F S16x10 .f32) (main_arg12 : FVec F S10 .f32) (main_v48 : IVec S_ 1) (main_v49 : FVec F S16 .f32) (main_v50 : FVec F S16 .f32) : IVec S_ 1 :=
  let main_v51 : IVec S16 1 := cmpf .olt main_v49 main_v50
  let main_c_19 : IVec S_ 1 := constantI S_ 1 1#1
  let main_v52 : IVec S_ 1 := (fun x v => Host.reduce IntOp.andi x v reducesTo_S16_S_d0 h_S_) main_v51 main_c_19
  let main_v53 : IVec S_ 1 := andi main_v48 main_v52
  let main_v54 : FVec F S16x10 .f32 := Host.absf main_arg11
  let main_cst_20 : FVec F S_ .f32 := constant S_ .f32 0x7F800000#32
  let main_v55 : FVec F S16x10 .f32 := broadcastInDim S16x10 ![] bcast_S_S16x10 main_cst_20
  let main_v56 : IVec S16x10 1 := cmpf .olt main_v54 main_v55
  let main_c_21 : IVec S_ 1 := constantI S_ 1 1#1
  let main_v57 : IVec S_ 1 := (fun x v => Host.reduce IntOp.andi x v reducesTo_S16x10_S_d0_1 h_S_) main_v56 main_c_21
  let main_v58 : IVec S_ 1 := andi main_v53 main_v57
  let main_v59 : FVec F S10 .f32 := Host.absf main_arg12
  let main_cst_22 : FVec F S_ .f32 := constant S_ .f32 0x7F800000#32
  let main_v60 : FVec F S10 .f32 := broadcastInDim S10 ![] bcast_S_S10 main_cst_22
  let main_v61 : IVec S10 1 := cmpf .olt main_v59 main_v60
  let main_c_23 : IVec S_ 1 := constantI S_ 1 1#1
  let main_v62 : IVec S_ 1 := (fun x v => Host.reduce IntOp.andi x v reducesTo_S10_S_d0 h_S_) main_v61 main_c_23
  let main_v63 : IVec S_ 1 := andi main_v58 main_v62
  main_v63

def fn_part2 {F : FTy → Type} [FloatOps F] (main_arg7 : FVec F S128x64 .f32) (main_arg8 : FVec F S64 .f32) (main_arg9 : FVec F S64x16 .f32) (main_arg10 : FVec F S16 .f32) (main_arg11 : FVec F S16x10 .f32) (main_arg12 : FVec F S10 .f32) (main_v33 : IVec S_ 1) : IVec S_ 1 :=
  let main_v34 : FVec F S128x64 .f32 := Host.absf main_arg7
  let main_cst_12 : FVec F S_ .f32 := constant S_ .f32 0x7F800000#32
  let main_v35 : FVec F S128x64 .f32 := broadcastInDim S128x64 ![] bcast_S_S128x64 main_cst_12
  let main_v36 : IVec S128x64 1 := cmpf .olt main_v34 main_v35
  let main_c_13 : IVec S_ 1 := constantI S_ 1 1#1
  let main_v37 : IVec S_ 1 := (fun x v => Host.reduce IntOp.andi x v reducesTo_S128x64_S_d0_1 h_S_) main_v36 main_c_13
  let main_v38 : IVec S_ 1 := andi main_v33 main_v37
  let main_v39 : FVec F S64 .f32 := Host.absf main_arg8
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x16 .f32 := Host.absf main_arg9
  let main_cst_16 : FVec F S_ .f32 := constant S_ .f32 0x7F800000#32
  let main_v45 : FVec F S64x16 .f32 := broadcastInDim S64x16 ![] bcast_S_S64x16 main_cst_16
  let main_v46 : IVec S64x16 1 := cmpf .olt main_v44 main_v45
  let main_c_17 : IVec S_ 1 := constantI S_ 1 1#1
  let main_v47 : IVec S_ 1 := (fun x v => Host.reduce IntOp.andi x v reducesTo_S64x16_S_d0_1 h_S_) main_v46 main_c_17
  let main_v48 : IVec S_ 1 := andi main_v43 main_v47
  let main_v49 : FVec F S16 .f32 := Host.absf main_arg10
  let main_cst_18 : FVec F S_ .f32 := constant S_ .f32 0x7F800000#32
  let main_v50 : FVec F S16 .f32 := broadcastInDim S16 ![] bcast_S_S16 main_cst_18
  fn_part3 (F := F) main_arg11 main_arg12 main_v48 main_v49 main_v50

def fn_part1 {F : FTy → Type} [FloatOps F] (main_arg4 : FVec F S128 .f32) (main_arg5 : FVec F S128x128 .f32) (main_arg6 : FVec F S128 .f32) (main_arg7 : FVec F S128x64 .f32) (main_arg8 : FVec F S64 .f32) (main_arg9 : FVec F S64x16 .f32) (main_arg10 : FVec F S16 .f32) (main_arg11 : FVec F S16x10 .f32) (main_arg12 : FVec F S10 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg5
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S10000x128 .f32) (main_arg1 : FVec F S10000x10000 .f32) (main_arg2 : FVec F S10000x10000 .f32) (main_arg3 : FVec F S128x128 .f32) (main_arg4 : FVec F S128 .f32) (main_arg5 : FVec F S128x128 .f32) (main_arg6 : FVec F S128 .f32) (main_arg7 : FVec F S128x64 .f32) (main_arg8 : FVec F S64 .f32) (main_arg9 : FVec F S64x16 .f32) (main_arg10 : FVec F S16 .f32) (main_arg11 : FVec F S16x10 .f32) (main_arg12 : FVec F S10 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S10000x10000 .f32 := Host.absf main_arg2
  let main_cst_2 : FVec F S_ .f32 := constant S_ .f32 0x7F800000#32
  let main_v10 : FVec F S10000x10000 .f32 := broadcastInDim S10000x10000 ![] bcast_S_S10000x10000 main_cst_2
  let main_v11 : IVec S10000x10000 1 := cmpf .olt main_v9 main_v10
  let main_c_3 : IVec S_ 1 := constantI S_ 1 1#1
  let main_v12 : IVec S_ 1 := (fun x v => Host.reduce IntOp.andi x v reducesTo_S10000x10000_S_d0_1 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_arg6 main_arg7 main_arg8 main_arg9 main_arg10 main_arg11 main_arg12 main_v13 main_v16
-- ==== Kernel.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x16 : Shape := ⟨2, ![64, 16]⟩
abbrev S16 : Shape := ⟨1, ![16]⟩
abbrev S16x10 : Shape := ⟨2, ![16, 10]⟩
abbrev S10 : Shape := ⟨1, ![10]⟩
abbrev S1x128 : Shape := ⟨2, ![1, 128]⟩
abbrev S400x10000 : Shape := ⟨2, ![400, 10000]⟩
abbrev S400x128 : Shape := ⟨2, ![400, 128]⟩
abbrev S1x64 : Shape := ⟨2, ![1, 64]⟩
abbrev S1x16 : Shape := ⟨2, ![1, 16]⟩
abbrev S1x10 : Shape := ⟨2, ![1, 10]⟩
abbrev S10000x10 : Shape := ⟨2, ![10000, 10]⟩
abbrev S400x10 : Shape := ⟨2, ![400, 10]⟩
abbrev S400x64 : Shape := ⟨2, ![400, 64]⟩
abbrev S400x16 : Shape := ⟨2, ![400, 16]⟩

abbrev nBuf : Space → Nat
  | .hbm => 20
  | .vmem => 20
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S10000x10000, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x64, .f32⟩
  | .hbm, ⟨8, _⟩ => ⟨S64, .f32⟩
  | .hbm, ⟨9, _⟩ => ⟨S64x16, .f32⟩
  | .hbm, ⟨10, _⟩ => ⟨S16, .f32⟩
  | .hbm, ⟨11, _⟩ => ⟨S16x10, .f32⟩
  | .hbm, ⟨12, _⟩ => ⟨S10, .f32⟩
  | .hbm, ⟨13, _⟩ => ⟨S1x128, .f32⟩
  | .hbm, ⟨14, _⟩ => ⟨S10000x128, .f32⟩
  | .hbm, ⟨15, _⟩ => ⟨S1x128, .f32⟩
  | .hbm, ⟨16, _⟩ => ⟨S1x64, .f32⟩
  | .hbm, ⟨17, _⟩ => ⟨S1x16, .f32⟩
  | .hbm, ⟨18, _⟩ => ⟨S1x10, .f32⟩
  | .hbm, ⟨19, _⟩ => ⟨S10000x10, .f32⟩
  | .local _ .vmem, ⟨0, _⟩ => ⟨S400x10000, .f32⟩
  | .local _ .vmem, ⟨1, _⟩ => ⟨S400x10000, .f32⟩
  | .local _ .vmem, ⟨2, _⟩ => ⟨S10000x128, .f32⟩
  | .local _ .vmem, ⟨3, _⟩ => ⟨S128x128, .f32⟩
  | .local _ .vmem, ⟨4, _⟩ => ⟨S1x128, .f32⟩
  | .local _ .vmem, ⟨5, _⟩ => ⟨S128x128, .f32⟩
  | .local _ .vmem, ⟨6, _⟩ => ⟨S400x128, .f32⟩
  | .local _ .vmem, ⟨7, _⟩ => ⟨S400x128, .f32⟩
  | .local _ .vmem, ⟨8, _⟩ => ⟨S400x10000, .f32⟩
  | .local _ .vmem, ⟨9, _⟩ => ⟨S400x10000, .f32⟩
  | .local _ .vmem, ⟨10, _⟩ => ⟨S10000x128, .f32⟩
  | .local _ .vmem, ⟨11, _⟩ => ⟨S1x128, .f32⟩
  | .local _ .vmem, ⟨12, _⟩ => ⟨S128x64, .f32⟩
  | .local _ .vmem, ⟨13, _⟩ => ⟨S1x64, .f32⟩
  | .local _ .vmem, ⟨14, _⟩ => ⟨S64x16, .f32⟩
  | .local _ .vmem, ⟨15, _⟩ => ⟨S1x16, .f32⟩
  | .local _ .vmem, ⟨16, _⟩ => ⟨S16x10, .f32⟩
  | .local _ .vmem, ⟨17, _⟩ => ⟨S1x10, .f32⟩
  | .local _ .vmem, ⟨18, _⟩ => ⟨S400x10, .f32⟩
  | .local _ .vmem, ⟨19, _⟩ => ⟨S400x10, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg7_0 : Ref sig .tc := ⟨.vmem, 16, rfl⟩
abbrev cc1_stg8_0 : Ref sig .tc := ⟨.vmem, 17, rfl⟩
abbrev cc1_stg9_0 : Ref sig .tc := ⟨.vmem, 18, rfl⟩
abbrev cc1_stg9_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem6_0 : DmaSem sig := 15
abbrev cc1_sem7_0 : DmaSem sig := 16
abbrev cc1_sem8_0 : DmaSem sig := 17
abbrev cc1_sem9_0 : DmaSem sig := 18
abbrev cc1_sem9_1 : DmaSem sig := 19

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S400x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10000x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S400x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S400x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64x16 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x16 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S16x10 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x10 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S400x10 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

class Facts₀ : Prop where
  shapeCasts_S128_S1x128 : S128.ShapeCasts S1x128
  inb_S400x10000_S400x10000_0_0 : ∀ a, (![0, 0] : Fin 2 → Nat) a + S400x10000.size a ≤ S400x10000.size a
  h_S400x10000 : 0 < S400x10000.numel
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S400x128 : S1x128.Broadcasts S400x128
  inb_S400x128_S400x128_0_0 : ∀ a, (![0, 0] : Fin 2 → Nat) a + S400x128.size a ≤ S400x128.size a
  h_S400x128 : 0 < S400x128.numel
  shapeCasts_S64_S1x64 : S64.ShapeCasts S1x64
  shapeCasts_S16_S1x16 : S16.ShapeCasts S1x16
  shapeCasts_S10_S1x10 : S10.ShapeCasts S1x10
  shapeCasts_S10000x128_S10000x128 : S10000x128.ShapeCasts S10000x128
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S400x64 : S1x64.Broadcasts S400x64
  inb_S64x16_S64x16_0_0 : ∀ a, (![0, 0] : Fin 2 → Nat) a + S64x16.size a ≤ S64x16.size a
  h_S64x16 : 0 < S64x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S400x16 : S1x16.Broadcasts S400x16
  inb_S16x10_S16x10_0_0 : ∀ a, (![0, 0] : Fin 2 → Nat) a + S16x10.size a ≤ S16x10.size a
  h_S16x10 : 0 < S16x10.numel
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S400x10 : S1x10.Broadcasts S400x10
  inb_S400x10_S400x10_0_0 : ∀ a, (![0, 0] : Fin 2 → Nat) a + S400x10.size a ≤ S400x10.size a
  h_S400x10 : 0 < S400x10.numel
  dot_S400x10000_S10000x128_S400x128_1_0_0_1_n_n_wf : DotDims.WF S400x10000 S10000x128 S400x128 [1] [0] [0] [1] [] []
  dot_S400x128_S128x128_S400x128_1_0_0_1_n_n_wf : DotDims.WF S400x128 S128x128 S400x128 [1] [0] [0] [1] [] []
  dot_S400x128_S128x64_S400x64_1_0_0_1_n_n_wf : DotDims.WF S400x128 S128x64 S400x64 [1] [0] [0] [1] [] []
  dot_S400x64_S64x16_S400x16_1_0_0_1_n_n_wf : DotDims.WF S400x64 S64x16 S400x16 [1] [0] [0] [1] [] []
  dot_S400x16_S16x10_S400x10_1_0_0_1_n_n_wf : DotDims.WF S400x16 S16x10 S400x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x10000.size a ≤ S10000x10000.size a
  hwx0_0 : ∀ i : grid0.Coords, EltTy.bits .f32 = 32 ∨ (Rect.block (s := S10000x10000) S400x10000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S10000x128.size a
  hwx0_1 : ∀ i : grid0.Coords, EltTy.bits .f32 = 32 ∨ (Rect.block (s := S10000x128) S10000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S400x128.size a ≤ S10000x128.size a
  hwx0_5 : ∀ i : grid0.Coords, EltTy.bits .f32 = 32 ∨ (Rect.block (s := S10000x128) S400x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S400x10000.size a ≤ S10000x10000.size a
  hwx1_0 : ∀ i : grid1.Coords, EltTy.bits .f32 = 32 ∨ (Rect.block (s := S10000x10000) S400x10000.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x128.size a ≤ S10000x128.size a
  hwx1_1 : ∀ i : grid1.Coords, EltTy.bits .f32 = 32 ∨ (Rect.block (s := S10000x128) S10000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x64.size a ≤ S128x64.size a
  hwx1_3 : ∀ i : grid1.Coords, EltTy.bits .f32 = 32 ∨ (Rect.block (s := S128x64) S128x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x16.size a ≤ S64x16.size a
  hwx1_5 : ∀ i : grid1.Coords, EltTy.bits .f32 = 32 ∨ (Rect.block (s := S64x16) S64x16.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x16.size a ≤ S1x16.size a
  hwx1_6 : ∀ i : grid1.Coords, EltTy.bits .f32 = 32 ∨ (Rect.block (s := S1x16) S1x16.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S16x10.size a ≤ S16x10.size a
  hwx1_7 : ∀ i : grid1.Coords, EltTy.bits .f32 = 32 ∨ (Rect.block (s := S16x10) S16x10.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x10.size a ≤ S1x10.size a
  hwx1_8 : ∀ i : grid1.Coords, EltTy.bits .f32 = 32 ∨ (Rect.block (s := S1x10) S1x10.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S400x10.size a ≤ S10000x10.size a
  hwx1_9 : ∀ i : grid1.Coords, EltTy.bits .f32 = 32 ∨ (Rect.block (s := S10000x10) S400x10.size (cc1_transform_9 i) (hinb1_9 i)).WholeWords (EltTy.packing .f32)

variable [Facts₀]

def dot_S400x10000_S10000x128_S400x128_1_0_0_1_n_n : DotDims S400x10000 S10000x128 S400x128 where
  lhsContracting := [1]
  rhsContracting := [0]
  lhsNonContracting := [0]
  rhsNonContracting := [1]
  lhsBatch := []
  rhsBatch := []
  wf := dot_S400x10000_S10000x128_S400x128_1_0_0_1_n_n_wf
def dot_S400x128_S128x128_S400x128_1_0_0_1_n_n : DotDims S400x128 S128x128 S400x128 where
  lhsContracting := [1]
  rhsContracting := [0]
  lhsNonContracting := [0]
  rhsNonContracting := [1]
  lhsBatch := []
  rhsBatch := []
  wf := dot_S400x128_S128x128_S400x128_1_0_0_1_n_n_wf
def dot_S400x128_S128x64_S400x64_1_0_0_1_n_n : DotDims S400x128 S128x64 S400x64 where
  lhsContracting := [1]
  rhsContracting := [0]
  lhsNonContracting := [0]
  rhsNonContracting := [1]
  lhsBatch := []
  rhsBatch := []
  wf := dot_S400x128_S128x64_S400x64_1_0_0_1_n_n_wf
def dot_S400x64_S64x16_S400x16_1_0_0_1_n_n : DotDims S400x64 S64x16 S400x16 where
  lhsContracting := [1]
  rhsContracting := [0]
  lhsNonContracting := [0]
  rhsNonContracting := [1]
  lhsBatch := []
  rhsBatch := []
  wf := dot_S400x64_S64x16_S400x16_1_0_0_1_n_n_wf
def dot_S400x16_S16x10_S400x10_1_0_0_1_n_n : DotDims S400x16 S16x10 S400x10 where
  lhsContracting := [1]
  rhsContracting := [0]
  lhsNonContracting := [0]
  rhsNonContracting := [1]
  lhsBatch := []
  rhsBatch := []
  wf := dot_S400x16_S16x10_S400x10_1_0_0_1_n_n_wf

abbrev win0_0 : Pipeline.Window sig grid0 :=
  Pipeline.Window.ofSpec (Memref.whole main_arg2) S400x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S10000x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S400x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_arg1) S400x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S10000x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S128x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v3) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg9) S64x16.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v4) S1x16.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg11) S16x10.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v5) S1x10.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v6) S400x10.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x16 : Shape := ⟨2, ![64, 16]⟩
abbrev S16 : Shape := ⟨1, ![16]⟩
abbrev S16x10 : Shape := ⟨2, ![16, 10]⟩
abbrev S10 : Shape := ⟨1, ![10]⟩
abbrev S1x128 : Shape := ⟨2, ![1, 128]⟩
abbrev S10000x64 : Shape := ⟨2, ![10000, 64]⟩
abbrev S1x64 : Shape := ⟨2, ![1, 64]⟩
abbrev S10000x16 : Shape := ⟨2, ![10000, 16]⟩
abbrev S1x16 : Shape := ⟨2, ![1, 16]⟩
abbrev S10000x10 : Shape := ⟨2, ![10000, 10]⟩
abbrev S1x10 : Shape := ⟨2, ![1, 10]⟩

abbrev nBuf : Space → Nat
  | .hbm => 39
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S10000x10000, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x64, .f32⟩
  | .hbm, ⟨8, _⟩ => ⟨S64, .f32⟩
  | .hbm, ⟨9, _⟩ => ⟨S64x16, .f32⟩
  | .hbm, ⟨10, _⟩ => ⟨S16, .f32⟩
  | .hbm, ⟨11, _⟩ => ⟨S16x10, .f32⟩
  | .hbm, ⟨12, _⟩ => ⟨S10, .f32⟩
  | .hbm, ⟨13, _⟩ => ⟨S10000x128, .f32⟩
  | .hbm, ⟨14, _⟩ => ⟨S10000x128, .f32⟩
  | .hbm, ⟨15, _⟩ => ⟨S1x128, .f32⟩
  | .hbm, ⟨16, _⟩ => ⟨S10000x128, .f32⟩
  | .hbm, ⟨17, _⟩ => ⟨S10000x128, .f32⟩
  | .hbm, ⟨18, _⟩ => ⟨S10000x128, .f32⟩
  | .hbm, ⟨19, _⟩ => ⟨S10000x128, .f32⟩
  | .hbm, ⟨20, _⟩ => ⟨S10000x128, .f32⟩
  | .hbm, ⟨21, _⟩ => ⟨S1x128, .f32⟩
  | .hbm, ⟨22, _⟩ => ⟨S10000x128, .f32⟩
  | .hbm, ⟨23, _⟩ => ⟨S10000x128, .f32⟩
  | .hbm, ⟨24, _⟩ => ⟨S10000x128, .f32⟩
  | .hbm, ⟨25, _⟩ => ⟨S10000x64, .f32⟩
  | .hbm, ⟨26, _⟩ => ⟨S1x64, .f32⟩
  | .hbm, ⟨27, _⟩ => ⟨S10000x64, .f32⟩
  | .hbm, ⟨28, _⟩ => ⟨S10000x64, .f32⟩
  | .hbm, ⟨29, _⟩ => ⟨S10000x64, .f32⟩
  | .hbm, ⟨30, _⟩ => ⟨S10000x16, .f32⟩
  | .hbm, ⟨31, _⟩ => ⟨S1x16, .f32⟩
  | .hbm, ⟨32, _⟩ => ⟨S10000x16, .f32⟩
  | .hbm, ⟨33, _⟩ => ⟨S10000x16, .f32⟩
  | .hbm, ⟨34, _⟩ => ⟨S10000x16, .f32⟩
  | .hbm, ⟨35, _⟩ => ⟨S10000x10, .f32⟩
  | .hbm, ⟨36, _⟩ => ⟨S1x10, .f32⟩
  | .hbm, ⟨37, _⟩ => ⟨S10000x10, .f32⟩
  | .hbm, ⟨38, _⟩ => ⟨S10000x10, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S64_S1x64_1 : S64.BroadcastsInDim S1x64 (![1] : Fin 1 → Fin S1x64.rank)
  bcast_S1x64_S10000x64_0_1 : S1x64.BroadcastsInDim S10000x64 (![0, 1] : Fin 2 → Fin S10000x64.rank)
  bcast_S16_S1x16_1 : S16.BroadcastsInDim S1x16 (![1] : Fin 1 → Fin S1x16.rank)
  bcast_S1x16_S10000x16_0_1 : S1x16.BroadcastsInDim S10000x16 (![0, 1] : Fin 2 → Fin S10000x16.rank)
  bcast_S10_S1x10_1 : S10.BroadcastsInDim S1x10 (![1] : Fin 1 → Fin S1x10.rank)
  bcast_S1x10_S10000x10_0_1 : S1x10.BroadcastsInDim S10000x10 (![0, 1] : Fin 2 → Fin S10000x10.rank)
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []
  dot_S10000x128_S128x64_S10000x64_1_0_0_1_n_n_wf : DotDims.WF S10000x128 S128x64 S10000x64 [1] [0] [0] [1] [] []
  dot_S10000x64_S64x16_S10000x16_1_0_0_1_n_n_wf : DotDims.WF S10000x64 S64x16 S10000x16 [1] [0] [0] [1] [] []
  dot_S10000x16_S16x10_S10000x10_1_0_0_1_n_n_wf : DotDims.WF S10000x16 S16x10 S10000x10 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def dot_S10000x64_S64x16_S10000x16_1_0_0_1_n_n : DotDims S10000x64 S64x16 S10000x16 where
  lhsContracting := [1]
  rhsContracting := [0]
  lhsNonContracting := [0]
  rhsNonContracting := [1]
  lhsBatch := []
  rhsBatch := []
  wf := dot_S10000x64_S64x16_S10000x16_1_0_0_1_n_n_wf
def dot_S10000x16_S16x10_S10000x10_1_0_0_1_n_n : DotDims S10000x16 S16x10 S10000x10 where
  lhsContracting := [1]
  rhsContracting := [0]
  lhsNonContracting := [0]
  rhsNonContracting := [1]
  lhsBatch := []
  rhsBatch := []
  wf := dot_S10000x16_S16x10_S10000x10_1_0_0_1_n_n_wf

class Facts : Prop extends Facts₀ where

variable [Facts]
-- ==== Proof.KernelRun.lean ====
/-
  The idealized kernel's run with its result named.

  The program is two kernel regions among stretches of host reshapes. Its generated frame follows the contents of the
  TensorCore's buffers through the four segments (`W0` at launch, `W1` after the first reshape, `W2` after the first
  region, `W3` after the four later reshapes, `W4` after the second region) and reads the final state against `W4`, but
  states only that the arguments end as launched. Here the same launch is read once more at the result buffer: every
  weakly fair execution terminates, faultless, with the result holding `W4`'s contents there and the arguments unchanged.
-/
import proofs.«121009_g7576322310719_cont_9to1c4b_828_14_alg».proof.Proof.Gen.KernelIdeal.Frame

set_option maxRecDepth 16384

noncomputable section

namespace Cert.KernelIdeal.ResultRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last boundary's
    contents and every argument array as launched. -/
theorem run : θ_run defs (onTc (τ := τ) (main (F := F))) ⟨m, fun _ => 0, ρ⟩ (fun r => ∀ c : Dev nD,
      r.2.mem ((c.tc : Thread nD τ).loc main_v6) = W4 m ρ c (Proc.devRef .tc main_v6)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v6 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c),
       (h c _ (mem_uc main_arg10 (by decide))).trans (W4_main_arg10 m ρ c),
       (h c _ (mem_uc main_arg11 (by decide))).trans (W4_main_arg11 m ρ c),
       (h c _ (mem_uc main_arg12 (by decide))).trans (W4_main_arg12 m ρ c)⟩)

end Cert.KernelIdeal.ResultRun

end
-- ==== Proof.LibMatrixRows.lean ====
/-
  Plain matrix products at the extended reals, and blocks of rows.

  A float at the ideal instance is an extended real, and both a kernel's matrix unit (into a zero accumulator) and the
  host's `dot_general` with the dimension numbers `[1] x [0]` compute, at an entry `(p, q)`, the sum over `k` of
  `L (p, k) * R (k, q)`. This file names that product (`mmul`), identifies both operations with it as whole functions,
  names the two ways a bias row is spread over the rows of a matrix, and proves the facts a row-blocked kernel needs:

  * `rows off h G` is the block of `M` consecutive rows of `G` starting at row `off`; a product's block of rows is the
    product of the left factor's block of rows with the WHOLE right factor (`rows_mmul`), and the row-wise operations
    (adding a bias row, `tanh`) commute with taking a block of rows;
  * when every entry of three matrices is a real number, their product is associative (`mmul_assoc`): on the extended
    reals distributivity fails at the infinities, so the hypothesis is needed.
-/
import Idealize.ShloMosaic.PureOps.Ideal.Laws
import Idealize.ShloMosaic.Lib.ValueIdx
import Idealize.ShloMosaic.Lib.Pipeline.Value

noncomputable section

open scoped BigOperators

namespace Cert.MatrixRows

open Idealize.ShloMosaic Idealize.ShloMosaic.ValueIdx

/-- An `M × N` matrix of extended reals, indexed as an array of shape `[M, N]`. -/
abbrev Mat (M N : Nat) : Type := (⟨2, ![M, N]⟩ : Shape).Idx → EReal

/-- The row coordinate of an index, typed by the literal extent. -/
abbrev row {M N : Nat} (i : (⟨2, ![M, N]⟩ : Shape).Idx) : Fin M := ⟨(i 0).val, idx2_lt0 i⟩
/-- The column coordinate of an index, typed by the literal extent. -/
abbrev col {M N : Nat} (i : (⟨2, ![M, N]⟩ : Shape).Idx) : Fin N := ⟨(i 1).val, idx2_lt1 i⟩

/-- The product of an `M × K` and a `K × N` matrix: entry `(p, q)` is `∑ k, L (p, k) * R (k, q)`. -/
def mmul {M K N : Nat} (L : Mat M K) (R : Mat K N) : Mat M N :=
  fun i => ∑ k : Fin K, L (ix2 (row i) k) * R (ix2 k (col i))

theorem mmul_apply {M K N : Nat} (L : Mat M K) (R : Mat K N) (p : Fin M) (q : Fin N) :
    mmul L R (ix2 p q) = ∑ k : Fin K, L (ix2 p k) * R (ix2 k q) := rfl

/-! ## The two printed products are `mmul` -/

theorem plain_lhs0 {M K N : Nat} (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin 2) ∈ (DotDims.plain M K N).lhsBatch from fun h => nomatch h),
    dif_pos (show (0 : Fin 2) ∈ (DotDims.plain M K N).lhsNonContracting from List.mem_singleton.mpr rfl)]
  rfl

theorem plain_rhs1 {M K N : Nat} (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin 2) ∈ (DotDims.plain M K N).rhsBatch from fun h => nomatch h),
    dif_pos (show (1 : Fin 2) ∈ (DotDims.plain M K N).rhsNonContracting from List.mem_singleton.mpr rfl)]
  rfl

/-- The contraction sum of the plain dimension numbers, re-indexed by the one contracted coordinate. -/
theorem plain_sum {M K N : Nat} (L : Mat M K) (R : Mat K N) (j : (⟨2, ![M, N]⟩ : Shape).Idx) :
    ∑ k : (DotDims.plain M K N).contr.Idx, L ((DotDims.plain M K N).lhsIdx j k) * R ((DotDims.plain M K N).rhsIdx j k)
      = mmul L R j := by
  unfold mmul
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (row j) k :=
    funext fun a => Fin.ext (by
      match a with
      | ⟨0, _⟩ => exact plain_lhs0 _ _
      | ⟨1, _⟩ => exact ((DotDims.plain M K N).lhsIdx_val_of_single rfl j _).trans hk)
  have er : (DotDims.plain M K N).rhsIdx j ((contrEquiv1 (DotDims.plain M K N) K rfl rfl).symm k) = ix2 k (col j) :=
    funext fun a => Fin.ext (by
      match a with
      | ⟨0, _⟩ => exact ((DotDims.plain M K N).rhsIdx_val_of_single rfl j _).trans hk
      | ⟨1, _⟩ => exact plain_rhs1 _ _)
  rw [el, er]

/-- A matrix unit's product into the zero accumulator is `mmul`. -/
theorem matmul_plain {M K N : Nat} (prec : Option ContractPrecision) (L : Mat M K) (R : Mat K N) :
    matmul (F := Ideal) (φ₁ := .f32) (φ₂ := .f32) (DotDims.plain M K N) prec L R (constant ⟨2, ![M, N]⟩ .f32 0x00000000#32) = mmul L R :=
  funext fun j => (Ideal.matmul_constant_zero_apply (φ₁ := .f32) (φ₂ := .f32) (DotDims.plain M K N) prec L R j).trans (plain_sum L R j)

/-- The host's `dot_general` is `mmul`. -/
theorem dotGeneral_plain {M K N : Nat} (prec : Option ContractPrecision) (L : Mat M K) (R : Mat K N) :
    Host.dotGeneral (F := Ideal) (φ₁ := .f32) (φ₂ := .f32) (DotDims.plain M K N) prec L R = mmul L R :=
  funext fun j => (Ideal.dotGeneral_apply (φ₁ := .f32) (φ₂ := .f32) (DotDims.plain M K N) prec .single L R j).trans (plain_sum L R j)

/-! ## A bias row spread over the rows -/

/-- A `[1, N]` row added to every row of an `M × N` matrix. -/
def addRow {M N : Nat} (A : Mat M N) (b : Mat 1 N) : Mat M N := fun i => A i + b (ix2 0 (col i))

/-- `tanh` of every entry. -/
def tanhM {M N : Nat} (A : Mat M N) : Mat M N := fun i => Ideal.tanh (A i)

/-- The kernel's spelling: the row shape-cast to itself, broadcast along the rows, added. -/
theorem addf_broadcastTo {M N : Nat} (A : Mat M N) (b : Mat 1 N) (h1 : (⟨2, ![1, N]⟩ : Shape).ShapeCasts ⟨2, ![1, N]⟩)
    (h2 : (⟨2, ![1, N]⟩ : Shape).Broadcasts ⟨2, ![M, N]⟩) :
    addf (F := Ideal) (φ := .f32) A (broadcastTo ⟨2, ![M, N]⟩ (shapeCast ⟨2, ![1, N]⟩ b h1) h2) = addRow A b := by
  funext i
  rw [shapeCast_self]
  show A i + _ = A i + _
  refine congrArg (A i + ·) ?_
  refine broadcastTo_apply b h2 i (ix2 0 (col i)) fun a => ?_
  match a with
  | ⟨0, _⟩ => show (0 : Nat) = if (1 : Nat) = 1 then 0 else _; rw [if_pos rfl]
  | ⟨1, _⟩ =>
    show (i 1).val = if N = 1 then 0 else (i 1).val
    by_cases hN : N = 1
    · rw [if_pos hN]; have := idx2_lt1 i; omega
    · rw [if_neg hN]

/-- A vector of `N` entries as a `[1, N]` row. -/
def asRow {N : Nat} (v : (⟨1, ![N]⟩ : Shape).Idx → EReal) : Mat 1 N := fun i => v (ix1 (col i))

/-- The reference's spelling of the bias: the vector broadcast to `[1, N]`, then to `[M, N]`, added. -/
theorem addf_broadcastInDim {M N : Nat} (A : Mat M N) (v : (⟨1, ![N]⟩ : Shape).Idx → EReal)
    (h1 : (⟨1, ![N]⟩ : Shape).BroadcastsInDim ⟨2, ![1, N]⟩ ![1])
    (h2 : (⟨2, ![1, N]⟩ : Shape).BroadcastsInDim ⟨2, ![M, N]⟩ ![0, 1]) :
    addf (F := Ideal) (φ := .f32) A (broadcastInDim ⟨2, ![M, N]⟩ ![0, 1] h2 (broadcastInDim ⟨2, ![1, N]⟩ ![1] h1 v)) = addRow A (asRow v) := by
  funext i
  show A i + _ = A i + _
  refine congrArg (A i + ·) ?_
  rw [broadcastInDim_apply ![0, 1] h2 _ i (ix2 0 (col i)) (fun a => by
    match a with
    | ⟨0, _⟩ => show (0 : Nat) = if (1 : Nat) = 1 then 0 else _; rw [if_pos rfl]
    | ⟨1, _⟩ =>
      show (i 1).val = if N = 1 then 0 else (i 1).val
      by_cases hN : N = 1
      · rw [if_pos hN]; have := idx2_lt1 i; omega
      · rw [if_neg hN])]
  refine broadcastInDim_apply ![1] h1 v (ix2 0 (col i)) (ix1 (col i)) fun a => ?_
  match a with
  | ⟨0, _⟩ =>
    show (i 1).val = if N = 1 then 0 else (i 1).val
    by_cases hN : N = 1
    · rw [if_pos hN]; have := idx2_lt1 i; omega
    · rw [if_neg hN]

/-- A vector reshaped to a `[1, N]` row is that row. -/
theorem shapeCast_asRow {N : Nat} (v : (⟨1, ![N]⟩ : Shape).Idx → EReal) (h : (⟨1, ![N]⟩ : Shape).ShapeCasts ⟨2, ![1, N]⟩) :
    shapeCast ⟨2, ![1, N]⟩ v h = asRow v := by
  funext i
  refine shapeCast_apply v h i (ix1 (col i)) ?_
  rw [Shape.rowMajor_val_one, Shape.rowMajor_val_two]
  show (i 1).val = (i 0).val * N + (i 1).val
  have : (i 0).val < 1 := idx2_lt0 i
  have h0 : (i 0).val = 0 := by omega
  rw [h0, Nat.zero_mul, Nat.zero_add]

/-! ## Blocks of rows -/

/-- The `M` consecutive rows of `G` from row `off` on. -/
def rows {M M' N : Nat} (off : Nat) (h : off + M ≤ M') (G : Mat M' N) : Mat M N :=
  fun i => G (ix2 (⟨off + (i 0).val, by have := idx2_lt0 i; omega⟩ : Fin M') (col i))

/-- A block of rows of a product is the block of rows of the left factor times the whole right factor. -/
theorem rows_mmul {M M' K N : Nat} (off : Nat) (h : off + M ≤ M') (L : Mat M' K) (R : Mat K N) :
    rows off h (mmul L R) = mmul (rows off h L) R := rfl

theorem rows_addRow {M M' N : Nat} (off : Nat) (h : off + M ≤ M') (A : Mat M' N) (b : Mat 1 N) :
    rows off h (addRow A b) = addRow (rows off h A) b := rfl

theorem rows_tanhM {M M' N : Nat} (off : Nat) (h : off + M ≤ M') (A : Mat M' N) :
    rows off h (tanhM A) = tanhM (rows off h A) := rfl

/-- All the rows: the matrix itself. -/
theorem rows_zero {M N : Nat} (h : 0 + M ≤ M) (G : Mat M N) : rows 0 h G = G := by
  funext i
  unfold rows
  refine congrArg G (funext fun a => Fin.ext ?_)
  match a with
  | ⟨0, _⟩ => show 0 + (i 0).val = (i 0).val; omega
  | ⟨1, _⟩ => rfl

/-! ## Associativity over the reals -/

/-- Every entry is a real number (neither infinity). -/
def AllReal {M N : Nat} (A : Mat M N) : Prop := ∀ i, ∃ r : ℝ, A i = (r : EReal)

theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- `(A · B) · C = A · (B · C)` for matrices of real numbers. -/
theorem mmul_assoc {M K J N : Nat} (A : Mat M K) (B : Mat K J) (C : Mat J N) (hA : AllReal A) (hB : AllReal B)
    (hC : AllReal C) : mmul (mmul A B) C = mmul A (mmul B C) := by
  choose a ha using hA
  choose b hb using hB
  choose c hc using hC
  funext i
  unfold mmul
  simp only [ha, hb, hc, ← EReal.coe_mul, ← coe_sum]
  refine congrArg _ ?_
  simp only [Finset.sum_mul, Finset.mul_sum]
  rw [Finset.sum_comm]
  exact Finset.sum_congr rfl fun k _ => Finset.sum_congr rfl fun l _ => mul_assoc _ _ _

end Cert.MatrixRows

end
-- ==== Proof.Network.lean ====
/-
  The network both programs compute, as matrix algebra over the extended reals.

  With `G` the gene adjacency, `A` the sample adjacency, `X` the features and the weights and bias rows as named:

    hidden = tanh ((G · X) · W_s + b_s) · W_f            (10000 × 128)
    out    = tanh (tanh (tanh (A · hidden + b_f) · W1 + b1) · W2 + b2) · W3 + b3      (10000 × 10)

  Every step after the two adjacency products acts row by row, so both are stated for any number `M` of rows of the
  adjacency matrix: a kernel that streams blocks of 400 rows computes the same functions at `M = 400`, and the block of
  rows of the whole result is the result of the block of rows (`rows_hiddenRows`, `rows_classRows`).

  The reference multiplies in the other order, `G · (X · W_s)`; the two agree when `G`, `X` and `W_s` hold real numbers
  (`hiddenRows_eq_ref`), by associativity of the matrix product over the reals.
-/
import proofs.«121009_g7576322310719_cont_9to1c4b_828_14_alg».proof.Proof.LibMatrixRows

noncomputable section

namespace Cert.Network

open Idealize.ShloMosaic Cert.MatrixRows

/-- One dense layer: `tanh (A · W + b)`, the bias row added to every row. -/
def layer {M K N : Nat} (A : Mat M K) (W : Mat K N) (b : Mat 1 N) : Mat M N := tanhM (addRow (mmul A W) b)

/-- The first stage on `M` rows of the gene adjacency: `tanh ((G · X) · W_s + b_s) · W_f`. -/
def hiddenRows {M : Nat} (G : Mat M 10000) (X : Mat 10000 128) (Ws : Mat 128 128) (bs : Mat 1 128) (Wf : Mat 128 128) :
    Mat M 128 :=
  mmul (layer (mmul G X) Ws bs) Wf

/-- The first stage with the products taken in the reference's order: `tanh (G · (X · W_s) + b_s) · W_f`. -/
def hiddenRowsRef {M : Nat} (G : Mat M 10000) (X : Mat 10000 128) (Ws : Mat 128 128) (bs : Mat 1 128) (Wf : Mat 128 128) :
    Mat M 128 :=
  mmul (tanhM (addRow (mmul G (mmul X Ws)) bs)) Wf

/-- The second stage on `M` rows of the sample adjacency: three `tanh` layers and the last affine map. -/
def classRows {M : Nat} (A : Mat M 10000) (H : Mat 10000 128) (bf : Mat 1 128) (W1 : Mat 128 64) (b1 : Mat 1 64)
    (W2 : Mat 64 16) (b2 : Mat 1 16) (W3 : Mat 16 10) (b3 : Mat 1 10) : Mat M 10 :=
  addRow (mmul (layer (layer (tanhM (addRow (mmul A H) bf)) W1 b1) W2 b2) W3) b3

/-- A block of rows of the first stage's result is the first stage of that block of rows of the adjacency. -/
theorem rows_hiddenRows {M M' : Nat} (off : Nat) (h : off + M ≤ M') (G : Mat M' 10000) (X : Mat 10000 128) (Ws : Mat 128 128)
    (bs : Mat 1 128) (Wf : Mat 128 128) :
    rows off h (hiddenRows G X Ws bs Wf) = hiddenRows (rows off h G) X Ws bs Wf := rfl

/-- A block of rows of the second stage's result is the second stage of that block of rows of the adjacency. -/
theorem rows_classRows {M M' : Nat} (off : Nat) (h : off + M ≤ M') (A : Mat M' 10000) (H : Mat 10000 128) (bf : Mat 1 128)
    (W1 : Mat 128 64) (b1 : Mat 1 64) (W2 : Mat 64 16) (b2 : Mat 1 16) (W3 : Mat 16 10) (b3 : Mat 1 10) :
    rows off h (classRows A H bf W1 b1 W2 b2 W3 b3) = classRows (rows off h A) H bf W1 b1 W2 b2 W3 b3 := rfl

/-- Over real entries the two orders of the first products agree. -/
theorem hiddenRows_eq_ref {M : Nat} (G : Mat M 10000) (X : Mat 10000 128) (Ws : Mat 128 128) (bs : Mat 1 128) (Wf : Mat 128 128)
    (hG : AllReal G) (hX : AllReal X) (hW : AllReal Ws) :
    hiddenRows G X Ws bs Wf = hiddenRowsRef G X Ws bs Wf := by
  unfold hiddenRows hiddenRowsRef layer
  rw [mmul_assoc G X Ws hG hX hW]

end Cert.Network

end
-- ==== Proof.Stage1.lean ====
/-
  The first kernel region: what its output array holds when the region ends.

  The region runs 25 grid points. Point `t` stages rows `400 t … 400 t + 399` of the gene adjacency (all 10000 columns)
  and the whole of the features, of `W_s`, of the bias row and of `W_f`, and writes back rows `400 t … 400 t + 399` of
  the output. The body's one stored value is, as a function of the staged blocks, the first stage of the network on
  those 400 rows; a block of rows of the first stage on all rows is the first stage on that block of rows; and the 25
  blocks of 400 rows cover the 10000 rows. So the output array ends holding the first stage of the whole arrays as the
  region found them.
-/
import proofs.«121009_g7576322310719_cont_9to1c4b_828_14_alg».proof.Proof.Gen.KernelIdeal.Frame
import proofs.«121009_g7576322310719_cont_9to1c4b_828_14_alg».proof.Proof.Network
import Idealize.ShloMosaic.Lib.Pipeline.Value

set_option maxRecDepth 16384

noncomputable section

namespace Cert.KernelIdeal.Stage1

open Cert.KernelIdeal Cert.KernelIdeal.Gen Cert.MatrixRows Cert.Network
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The stored value is the first stage of the network on the staged rows. -/
theorem payload (x0 : Vec Ideal S400x10000 .f32) (x1 : Vec Ideal S10000x128 .f32) (x2 : Vec Ideal S128x128 .f32)
    (x3 : Vec Ideal S1x128 .f32) (x4 : Vec Ideal S128x128 .f32) :
    k0_pay1 x0 x1 x2 x3 x4 = hiddenRows x0 x1 x2 x3 x4 := by
  unfold k0_pay1 hiddenRows layer
  dsimp only
  rw [show dot_S400x10000_S10000x128_S400x128_1_0_0_1_n_n = DotDims.plain 400 10000 128 from rfl,
    show dot_S400x128_S128x128_S400x128_1_0_0_1_n_n = DotDims.plain 400 128 128 from rfl]
  rw [matmul_plain, matmul_plain, addf_broadcastTo, matmul_plain]
  rfl

/-- The block index of the adjacency's and of the output's window at point `t` is `(t, 0)`; of every other, `(0, 0)`. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Point `t`'s 400 rows lie inside the 10000. -/
theorem hoff (t : Fin cfg0.N) : t.val * 400 + 400 ≤ 10000 := by
  have h := t.isLt
  have hN : cfg0.N = 25 := N_0
  omega

/-- The adjacency's block at point `t` is its rows `400 t …`. -/
theorem blk_adj (c : Dev nD) (t : Fin cfg0.N) :
    (iblk0 V c 0 t : Vec Ideal S400x10000 .f32) = rows (t.val * 400) (hoff t) (V c main_arg2) := by
  funext y
  show V c main_arg2 (((cfg0.win 0).blk t).view.emb y) = V c main_arg2 (ix2 ⟨t.val * 400 + (y 0).val, _⟩ (col y))
  refine congrArg _ (funext fun a => Fin.ext ?_)
  obtain ⟨e0, e1, -⟩ := idx_facts t
  match a with
  | ⟨0, _⟩ => show win0_0.index t (0 : Fin 2) * 400 + 1 * (y 0).val = t.val * 400 + (y 0).val; rw [e0]; omega
  | ⟨1, _⟩ => show win0_0.index t (1 : Fin 2) * 10000 + 1 * (y 1).val = (y 1).val; rw [e1]; omega

/-- The features' block at every point is the whole array. -/
theorem blk_x (c : Dev nD) (t : Fin cfg0.N) : (iblk0 V c 1 t : Vec Ideal S10000x128 .f32) = V c main_arg0 := by
  funext y
  show V c main_arg0 (((cfg0.win 1).blk t).view.emb y) = V c main_arg0 y
  refine congrArg _ (funext fun a => Fin.ext ?_)
  obtain ⟨-, -, e0, e1, -⟩ := idx_facts t
  match a with
  | ⟨0, _⟩ => show win0_1.index t (0 : Fin 2) * 10000 + 1 * (y 0).val = (y 0).val; rw [e0]; omega
  | ⟨1, _⟩ => show win0_1.index t (1 : Fin 2) * 128 + 1 * (y 1).val = (y 1).val; rw [e1]; omega

/-- `W_s`'s block at every point is the whole array. -/
theorem blk_ws (c : Dev nD) (t : Fin cfg0.N) : (iblk0 V c 2 t : Vec Ideal S128x128 .f32) = V c main_arg3 := by
  funext y
  show V c main_arg3 (((cfg0.win 2).blk t).view.emb y) = V c main_arg3 y
  refine congrArg _ (funext fun a => Fin.ext ?_)
  obtain ⟨-, -, -, -, e0, e1, -⟩ := idx_facts t
  match a with
  | ⟨0, _⟩ => show win0_2.index t (0 : Fin 2) * 128 + 1 * (y 0).val = (y 0).val; rw [e0]; omega
  | ⟨1, _⟩ => show win0_2.index t (1 : Fin 2) * 128 + 1 * (y 1).val = (y 1).val; rw [e1]; omega

/-- The bias row's block at every point is the whole row. -/
theorem blk_bs (c : Dev nD) (t : Fin cfg0.N) : (iblk0 V c 3 t : Vec Ideal S1x128 .f32) = V c main_v0 := by
  funext y
  show V c main_v0 (((cfg0.win 3).blk t).view.emb y) = V c main_v0 y
  refine congrArg _ (funext fun a => Fin.ext ?_)
  obtain ⟨-, -, -, -, -, -, e0, e1, -⟩ := idx_facts t
  match a with
  | ⟨0, _⟩ => show win0_3.index t (0 : Fin 2) * 1 + 1 * (y 0).val = (y 0).val; rw [e0]; omega
  | ⟨1, _⟩ => show win0_3.index t (1 : Fin 2) * 128 + 1 * (y 1).val = (y 1).val; rw [e1]; omega

/-- `W_f`'s block at every point is the whole array. -/
theorem blk_wf (c : Dev nD) (t : Fin cfg0.N) : (iblk0 V c 4 t : Vec Ideal S128x128 .f32) = V c main_arg5 := by
  funext y
  show V c main_arg5 (((cfg0.win 4).blk t).view.emb y) = V c main_arg5 y
  refine congrArg _ (funext fun a => Fin.ext ?_)
  obtain ⟨-, -, -, -, -, -, -, -, e0, e1, -⟩ := idx_facts t
  match a with
  | ⟨0, _⟩ => show win0_4.index t (0 : Fin 2) * 128 + 1 * (y 0).val = (y 0).val; rw [e0]; omega
  | ⟨1, _⟩ => show win0_4.index t (1 : Fin 2) * 128 + 1 * (y 1).val = (y 1).val; rw [e1]; omega

/-- Any array read through the output's block at point `t` is its rows `400 t …`. -/
theorem read_out (t : Fin cfg0.N) (c : Dev nD) (G : Mat 10000 128) :
    (((cfg0.win 5).blk t).view.read (Elt Ideal) (G : Buf (Elt Ideal) ((cfg0.win 5).arr.view.loc (c.tc : Thread nD τ))) : Vec Ideal S400x128 .f32)
      = rows (t.val * 400) (hoff t) G := by
  funext y
  show G (((cfg0.win 5).blk t).view.emb y) = G (ix2 ⟨t.val * 400 + (y 0).val, _⟩ (col y))
  refine congrArg _ (funext fun a => Fin.ext ?_)
  obtain ⟨-, -, -, -, -, -, -, -, -, -, e0, e1⟩ := idx_facts t
  match a with
  | ⟨0, _⟩ => show win0_5.index t (0 : Fin 2) * 400 + 1 * (y 0).val = t.val * 400 + (y 0).val; rw [e0]; omega
  | ⟨1, _⟩ => show win0_5.index t (1 : Fin 2) * 128 + 1 * (y 1).val = (y 1).val; rw [e1]; omega

/-- The first stage of the whole arrays as the region finds them. -/
abbrev hiddenOf (c : Dev nD) : Mat 10000 128 :=
  hiddenRows (V c main_arg2) (V c main_arg0) (V c main_arg3) (V c main_v0) (V c main_arg5)

/-- What point `t` writes back is its block of rows of the first stage of the whole arrays. -/
theorem flushed_eq (c : Dev nD) (t : Fin cfg0.N) :
    (dat0 V c).flushed 5 t = ((cfg0.win 5).blk t).view.read (Elt Ideal) (hiddenOf V c) := by
  show (cfg0.win 5).cut (grid0.coords t) ((dat0 V c).after 5 t) = _
  rw [after0_5 V c t]
  unfold out0_5
  rw [View.canon_unit_zero hz]
  simp only [View.ld_unit_zero (S := S400x10000) hz, View.ld_unit_zero (S := S10000x128) hz,
    View.ld_unit_zero (S := S128x128) hz, View.ld_unit_zero (S := S1x128) hz]
  rw [payload, blk_adj V c t, blk_x V c t, blk_ws V c t, blk_bs V c t, blk_wf V c t]
  exact (read_out t c (hiddenOf V c)).symm

/-- An index of the output array is in point `t`'s block iff each coordinate is in the block's range on its axis. -/
theorem mem_blk (t : Fin cfg0.N) (i : S10000x128.Idx) :
    i ∈ ((cfg0.win 5).blk t).view.set ↔ ∀ a : Fin 2, win0_5.index t a * S400x128.size a ≤ (i a).val ∧ (i a).val < win0_5.index t a * S400x128.size a + S400x128.size a := by
  show i ∈ ((View.whole main_v1).slice (win0_5.rect t)).set ↔ _
  rw [View.set_slice_whole, Rect.mem_set_unit]
  exact Iff.rfl

/-- Row `r` of the output is written back by point `r / 400`: the 25 blocks of 400 rows cover the array. -/
theorem cover (i : S10000x128.Idx) :
    ∃ t : Fin cfg0.N, (cfg0.win 5).flush t = true ∧ i ∈ ((cfg0.win 5).blk t).view.set := by
  have hi0 : (i 0).val < 10000 := idx2_lt0 i
  have hi1 : (i 1).val < 128 := idx2_lt1 i
  have hN : cfg0.N = 25 := N_0
  have ht : (i 0).val / 400 < cfg0.N := by omega
  refine ⟨⟨(i 0).val / 400, ht⟩, flush0_5 _, ?_⟩
  rw [mem_blk]
  obtain ⟨-, -, -, -, -, -, -, -, -, -, e0, e1⟩ := idx_facts ⟨(i 0).val / 400, ht⟩
  have e0' : win0_5.index ⟨(i 0).val / 400, ht⟩ (0 : Fin 2) = (i 0).val / 400 := e0
  intro a
  match a with
  | ⟨0, _⟩ =>
    show win0_5.index ⟨(i 0).val / 400, ht⟩ (0 : Fin 2) * 400 ≤ (i 0).val ∧ (i 0).val < win0_5.index ⟨(i 0).val / 400, ht⟩ (0 : Fin 2) * 400 + 400
    rw [e0']; omega
  | ⟨1, _⟩ =>
    show win0_5.index ⟨(i 0).val / 400, ht⟩ (1 : Fin 2) * 128 ≤ (i 1).val ∧ (i 1).val < win0_5.index ⟨(i 0).val / 400, ht⟩ (1 : Fin 2) * 128 + 128
    rw [e1]; omega

/-- When the region ends, its output array holds the first stage of the network of the arrays as the region found them. -/
theorem final (c : Dev nD) : (dat0 V c).arrAt 5 cfg0.N = hiddenOf V c :=
  (dat0 V c).arrAt_eq_of_cover 5 (hiddenOf V c) (fun t _ => flushed_eq V c t) cover

end Cert.KernelIdeal.Stage1

end
-- ==== Proof.Stage2.lean ====
/-
  The second kernel region: what its output array holds when the region ends.

  The region runs 25 grid points. Point `t` stages rows `400 t … 400 t + 399` of the sample adjacency (all 10000
  columns) and the whole of the first stage's result, of the three weight matrices and of the four bias rows, and writes
  back rows `400 t … 400 t + 399` of the output. The body's one stored value is the second stage of the network on those
  400 rows; a block of rows of the second stage on all rows is the second stage on that block of rows; and the 25 blocks
  of 400 rows cover the 10000 rows. So the output array ends holding the second stage of the whole arrays as the region
  found them.
-/
import proofs.«121009_g7576322310719_cont_9to1c4b_828_14_alg».proof.Proof.Gen.KernelIdeal.Frame
import proofs.«121009_g7576322310719_cont_9to1c4b_828_14_alg».proof.Proof.Network
import Idealize.ShloMosaic.Lib.Pipeline.Value

set_option maxRecDepth 16384

noncomputable section

namespace Cert.KernelIdeal.Stage2

open Cert.KernelIdeal Cert.KernelIdeal.Gen Cert.MatrixRows Cert.Network
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The stored value is the second stage of the network on the staged rows. -/
theorem payload (x0 : Vec Ideal S400x10000 .f32) (x1 : Vec Ideal S10000x128 .f32) (x2 : Vec Ideal S1x128 .f32)
    (x3 : Vec Ideal S128x64 .f32) (x4 : Vec Ideal S1x64 .f32) (x5 : Vec Ideal S64x16 .f32) (x6 : Vec Ideal S1x16 .f32)
    (x7 : Vec Ideal S16x10 .f32) (x8 : Vec Ideal S1x10 .f32) :
    k1_pay1 x0 x1 x2 x3 x4 x5 x6 x7 x8 = classRows x0 x1 x2 x3 x4 x5 x6 x7 x8 := by
  unfold k1_pay1 classRows layer
  dsimp only
  rw [show dot_S400x10000_S10000x128_S400x128_1_0_0_1_n_n = DotDims.plain 400 10000 128 from rfl,
    show dot_S400x128_S128x64_S400x64_1_0_0_1_n_n = DotDims.plain 400 128 64 from rfl,
    show dot_S400x64_S64x16_S400x16_1_0_0_1_n_n = DotDims.plain 400 64 16 from rfl,
    show dot_S400x16_S16x10_S400x10_1_0_0_1_n_n = DotDims.plain 400 16 10 from rfl]
  rw [addf_broadcastTo, addf_broadcastTo, addf_broadcastTo, addf_broadcastTo, matmul_plain, matmul_plain, matmul_plain,
    matmul_plain, shapeCast_self]
  rfl

/-- The block index of the adjacency's and of the output's window at point `t` is `(t, 0)`; of every other, `(0, 0)`. -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = 0 ∧ win1_8.index t (1 : Fin 2) = 0
    ∧ win1_9.index t (0 : Fin 2) = t.val ∧ win1_9.index t (1 : Fin 2) = 0 :=
  (by decide +kernel : ∀ t : Fin grid1.N, _)

/-- Point `t`'s 400 rows lie inside the 10000. -/
theorem hoff (t : Fin cfg1.N) : t.val * 400 + 400 ≤ 10000 := by
  have h := t.isLt
  have hN : cfg1.N = 25 := N_1
  omega

/-- The adjacency's block at point `t` is its rows `400 t …`. -/
theorem blk_adj (c : Dev nD) (t : Fin cfg1.N) :
    (iblk1 V c 0 t : Vec Ideal S400x10000 .f32) = rows (t.val * 400) (hoff t) (V c main_arg1) := by
  funext y
  show V c main_arg1 (((cfg1.win 0).blk t).view.emb y) = V c main_arg1 (ix2 ⟨t.val * 400 + (y 0).val, _⟩ (col y))
  refine congrArg _ (funext fun a => Fin.ext ?_)
  obtain ⟨e0, e1, -⟩ := idx_facts t
  match a with
  | ⟨0, _⟩ => show win1_0.index t (0 : Fin 2) * 400 + 1 * (y 0).val = t.val * 400 + (y 0).val; rw [e0]; omega
  | ⟨1, _⟩ => show win1_0.index t (1 : Fin 2) * 10000 + 1 * (y 1).val = (y 1).val; rw [e1]; omega

/-- Window 1's block at every point is its whole array. -/
theorem blk_h (c : Dev nD) (t : Fin cfg1.N) : (iblk1 V c 1 t : Vec Ideal S10000x128 .f32) = V c main_v1 := by
  funext y
  show V c main_v1 (((cfg1.win 1).blk t).view.emb y) = V c main_v1 y
  refine congrArg _ (funext fun a => Fin.ext ?_)
  obtain ⟨-, -, e0, e1, -⟩ := idx_facts t
  match a with
  | ⟨0, _⟩ => show win1_1.index t (0 : Fin 2) * 10000 + 1 * (y 0).val = (y 0).val; rw [e0]; omega
  | ⟨1, _⟩ => show win1_1.index t (1 : Fin 2) * 128 + 1 * (y 1).val = (y 1).val; rw [e1]; omega

/-- Window 2's block at every point is its whole array. -/
theorem blk_bf (c : Dev nD) (t : Fin cfg1.N) : (iblk1 V c 2 t : Vec Ideal S1x128 .f32) = V c main_v2 := by
  funext y
  show V c main_v2 (((cfg1.win 2).blk t).view.emb y) = V c main_v2 y
  refine congrArg _ (funext fun a => Fin.ext ?_)
  obtain ⟨-, -, -, -, e0, e1, -⟩ := idx_facts t
  match a with
  | ⟨0, _⟩ => show win1_2.index t (0 : Fin 2) * 1 + 1 * (y 0).val = (y 0).val; rw [e0]; omega
  | ⟨1, _⟩ => show win1_2.index t (1 : Fin 2) * 128 + 1 * (y 1).val = (y 1).val; rw [e1]; omega

/-- Window 3's block at every point is its whole array. -/
theorem blk_w1 (c : Dev nD) (t : Fin cfg1.N) : (iblk1 V c 3 t : Vec Ideal S128x64 .f32) = V c main_arg7 := by
  funext y
  show V c main_arg7 (((cfg1.win 3).blk t).view.emb y) = V c main_arg7 y
  refine congrArg _ (funext fun a => Fin.ext ?_)
  obtain ⟨-, -, -, -, -, -, e0, e1, -⟩ := idx_facts t
  match a with
  | ⟨0, _⟩ => show win1_3.index t (0 : Fin 2) * 128 + 1 * (y 0).val = (y 0).val; rw [e0]; omega
  | ⟨1, _⟩ => show win1_3.index t (1 : Fin 2) * 64 + 1 * (y 1).val = (y 1).val; rw [e1]; omega

/-- Window 4's block at every point is its whole array. -/
theorem blk_b1 (c : Dev nD) (t : Fin cfg1.N) : (iblk1 V c 4 t : Vec Ideal S1x64 .f32) = V c main_v3 := by
  funext y
  show V c main_v3 (((cfg1.win 4).blk t).view.emb y) = V c main_v3 y
  refine congrArg _ (funext fun a => Fin.ext ?_)
  obtain ⟨-, -, -, -, -, -, -, -, e0, e1, -⟩ := idx_facts t
  match a with
  | ⟨0, _⟩ => show win1_4.index t (0 : Fin 2) * 1 + 1 * (y 0).val = (y 0).val; rw [e0]; omega
  | ⟨1, _⟩ => show win1_4.index t (1 : Fin 2) * 64 + 1 * (y 1).val = (y 1).val; rw [e1]; omega

/-- Window 5's block at every point is its whole array. -/
theorem blk_w2 (c : Dev nD) (t : Fin cfg1.N) : (iblk1 V c 5 t : Vec Ideal S64x16 .f32) = V c main_arg9 := by
  funext y
  show V c main_arg9 (((cfg1.win 5).blk t).view.emb y) = V c main_arg9 y
  refine congrArg _ (funext fun a => Fin.ext ?_)
  obtain ⟨-, -, -, -, -, -, -, -, -, -, e0, e1, -⟩ := idx_facts t
  match a with
  | ⟨0, _⟩ => show win1_5.index t (0 : Fin 2) * 64 + 1 * (y 0).val = (y 0).val; rw [e0]; omega
  | ⟨1, _⟩ => show win1_5.index t (1 : Fin 2) * 16 + 1 * (y 1).val = (y 1).val; rw [e1]; omega

/-- Window 6's block at every point is its whole array. -/
theorem blk_b2 (c : Dev nD) (t : Fin cfg1.N) : (iblk1 V c 6 t : Vec Ideal S1x16 .f32) = V c main_v4 := by
  funext y
  show V c main_v4 (((cfg1.win 6).blk t).view.emb y) = V c main_v4 y
  refine congrArg _ (funext fun a => Fin.ext ?_)
  obtain ⟨-, -, -, -, -, -, -, -, -, -, -, -, e0, e1, -⟩ := idx_facts t
  match a with
  | ⟨0, _⟩ => show win1_6.index t (0 : Fin 2) * 1 + 1 * (y 0).val = (y 0).val; rw [e0]; omega
  | ⟨1, _⟩ => show win1_6.index t (1 : Fin 2) * 16 + 1 * (y 1).val = (y 1).val; rw [e1]; omega

/-- Window 7's block at every point is its whole array. -/
theorem blk_w3 (c : Dev nD) (t : Fin cfg1.N) : (iblk1 V c 7 t : Vec Ideal S16x10 .f32) = V c main_arg11 := by
  funext y
  show V c main_arg11 (((cfg1.win 7).blk t).view.emb y) = V c main_arg11 y
  refine congrArg _ (funext fun a => Fin.ext ?_)
  obtain ⟨-, -, -, -, -, -, -, -, -, -, -, -, -, -, e0, e1, -⟩ := idx_facts t
  match a with
  | ⟨0, _⟩ => show win1_7.index t (0 : Fin 2) * 16 + 1 * (y 0).val = (y 0).val; rw [e0]; omega
  | ⟨1, _⟩ => show win1_7.index t (1 : Fin 2) * 10 + 1 * (y 1).val = (y 1).val; rw [e1]; omega

/-- Window 8's block at every point is its whole array. -/
theorem blk_b3 (c : Dev nD) (t : Fin cfg1.N) : (iblk1 V c 8 t : Vec Ideal S1x10 .f32) = V c main_v5 := by
  funext y
  show V c main_v5 (((cfg1.win 8).blk t).view.emb y) = V c main_v5 y
  refine congrArg _ (funext fun a => Fin.ext ?_)
  obtain ⟨-, -, -, -, -, -, -, -, -, -, -, -, -, -, -, -, e0, e1, -⟩ := idx_facts t
  match a with
  | ⟨0, _⟩ => show win1_8.index t (0 : Fin 2) * 1 + 1 * (y 0).val = (y 0).val; rw [e0]; omega
  | ⟨1, _⟩ => show win1_8.index t (1 : Fin 2) * 10 + 1 * (y 1).val = (y 1).val; rw [e1]; omega

/-- Any array read through the output's block at point `t` is its rows `400 t …`. -/
theorem read_out (t : Fin cfg1.N) (c : Dev nD) (G : Mat 10000 10) :
    (((cfg1.win 9).blk t).view.read (Elt Ideal) (G : Buf (Elt Ideal) ((cfg1.win 9).arr.view.loc (c.tc : Thread nD τ))) : Vec Ideal S400x10 .f32)
      = rows (t.val * 400) (hoff t) G := by
  funext y
  show G (((cfg1.win 9).blk t).view.emb y) = G (ix2 ⟨t.val * 400 + (y 0).val, _⟩ (col y))
  refine congrArg _ (funext fun a => Fin.ext ?_)
  obtain ⟨-, -, -, -, -, -, -, -, -, -, -, -, -, -, -, -, -, -, e0, e1⟩ := idx_facts t
  match a with
  | ⟨0, _⟩ => show win1_9.index t (0 : Fin 2) * 400 + 1 * (y 0).val = t.val * 400 + (y 0).val; rw [e0]; omega
  | ⟨1, _⟩ => show win1_9.index t (1 : Fin 2) * 10 + 1 * (y 1).val = (y 1).val; rw [e1]; omega

/-- The second stage of the whole arrays as the region finds them. -/
abbrev classesOf (c : Dev nD) : Mat 10000 10 :=
  classRows (V c main_arg1) (V c main_v1) (V c main_v2) (V c main_arg7) (V c main_v3) (V c main_arg9) (V c main_v4)
    (V c main_arg11) (V c main_v5)

/-- What point `t` writes back is its block of rows of the second stage of the whole arrays. -/
theorem flushed_eq (c : Dev nD) (t : Fin cfg1.N) :
    (dat1 V c).flushed 9 t = ((cfg1.win 9).blk t).view.read (Elt Ideal) (classesOf V c) := by
  show (cfg1.win 9).cut (grid1.coords t) ((dat1 V c).after 9 t) = _
  rw [after1_9 V c t]
  unfold out1_9
  rw [View.canon_unit_zero hz]
  simp only [View.ld_unit_zero (S := S400x10000) hz, View.ld_unit_zero (S := S10000x128) hz,
    View.ld_unit_zero (S := S1x128) hz, View.ld_unit_zero (S := S128x64) hz, View.ld_unit_zero (S := S1x64) hz,
    View.ld_unit_zero (S := S64x16) hz, View.ld_unit_zero (S := S1x16) hz, View.ld_unit_zero (S := S16x10) hz,
    View.ld_unit_zero (S := S1x10) hz]
  rw [payload, blk_adj V c t, blk_h V c t, blk_bf V c t, blk_w1 V c t, blk_b1 V c t, blk_w2 V c t, blk_b2 V c t,
    blk_w3 V c t, blk_b3 V c t]
  exact (read_out t c (classesOf V c)).symm

/-- An index of the output array is in point `t`'s block iff each coordinate is in the block's range on its axis. -/
theorem mem_blk (t : Fin cfg1.N) (i : S10000x10.Idx) :
    i ∈ ((cfg1.win 9).blk t).view.set ↔ ∀ a : Fin 2, win1_9.index t a * S400x10.size a ≤ (i a).val ∧ (i a).val < win1_9.index t a * S400x10.size a + S400x10.size a := by
  show i ∈ ((View.whole main_v6).slice (win1_9.rect t)).set ↔ _
  rw [View.set_slice_whole, Rect.mem_set_unit]
  exact Iff.rfl

/-- Row `r` of the output is written back by point `r / 400`: the 25 blocks of 400 rows cover the array. -/
theorem cover (i : S10000x10.Idx) :
    ∃ t : Fin cfg1.N, (cfg1.win 9).flush t = true ∧ i ∈ ((cfg1.win 9).blk t).view.set := by
  have hi0 : (i 0).val < 10000 := idx2_lt0 i
  have hi1 : (i 1).val < 10 := idx2_lt1 i
  have hN : cfg1.N = 25 := N_1
  have ht : (i 0).val / 400 < cfg1.N := by omega
  refine ⟨⟨(i 0).val / 400, ht⟩, flush1_9 _, ?_⟩
  rw [mem_blk]
  obtain ⟨-, -, -, -, -, -, -, -, -, -, -, -, -, -, -, -, -, -, e0, e1⟩ := idx_facts ⟨(i 0).val / 400, ht⟩
  have e0' : win1_9.index ⟨(i 0).val / 400, ht⟩ (0 : Fin 2) = (i 0).val / 400 := e0
  intro a
  match a with
  | ⟨0, _⟩ =>
    show win1_9.index ⟨(i 0).val / 400, ht⟩ (0 : Fin 2) * 400 ≤ (i 0).val ∧ (i 0).val < win1_9.index ⟨(i 0).val / 400, ht⟩ (0 : Fin 2) * 400 + 400
    rw [e0']; omega
  | ⟨1, _⟩ =>
    show win1_9.index ⟨(i 0).val / 400, ht⟩ (1 : Fin 2) * 10 ≤ (i 1).val ∧ (i 1).val < win1_9.index ⟨(i 0).val / 400, ht⟩ (1 : Fin 2) * 10 + 10
    rw [e1]; omega

/-- When the region ends, its output array holds the second stage of the network of the arrays as the region found them. -/
theorem final (c : Dev nD) : (dat1 V c).arrAt 9 cfg1.N = classesOf V c :=
  (dat1 V c).arrAt_eq_of_cover 9 (classesOf V c) (fun t _ => flushed_eq V c t) cover

end Cert.KernelIdeal.Stage2

end
-- ==== Proof.KernelValue.lean ====
/-
  The idealized kernel's result as one function of its arguments.

  The buffers a region finds are the launch memory pushed through the host reshapes before it: each argument array is
  untouched, each bias vector of `N` entries arrives reshaped to a `[1, N]` row, and the second region finds, in the
  first region's output array, the first stage of the network (Stage1). Reading the second region's output array
  (Stage2) at those contents gives the result buffer after the run: the second stage applied to the sample adjacency,
  the first stage of the gene adjacency, the features and the weights, with every bias vector as a row.
-/
import proofs.«121009_g7576322310719_cont_9to1c4b_828_14_alg».proof.Proof.Gen.KernelIdeal.Frame
import proofs.«121009_g7576322310719_cont_9to1c4b_828_14_alg».proof.Proof.Network
import Idealize.ShloMosaic.Lib.Pipeline.Value
import proofs.«121009_g7576322310719_cont_9to1c4b_828_14_alg».proof.Proof.Stage1
import proofs.«121009_g7576322310719_cont_9to1c4b_828_14_alg».proof.Proof.Stage2
import Idealize.ShloMosaic.Lib.StableHlo.Run
set_option maxRecDepth 16384

noncomputable section

namespace Cert.KernelIdeal.Result

open Cert.KernelIdeal Cert.KernelIdeal.Gen Cert.MatrixRows Cert.Network
open Idealize.ShloMosaic Idealize.ShloMosaic.TcCoe Idealize.ShloMosaic.ValueIdx Idealize.SL.Sem
open Idealize.ShloMosaic.Pipeline (Dat Cfg Window)

open Idealize.ShloMosaic.StableHlo

variable (m : (ℓ : Loc nD τ sig) → Buf (Elt Ideal) ℓ) (ρ : Dev nD → PrngReg)

/-! ## What the first region finds -/

theorem V1_arg2 (c : Dev nD) : V1 m ρ c main_arg2 = m ((c : Thread nD τ).loc main_arg2) := by
  show StableHlo.after hostOps0 (W0 m ρ c) (Proc.devRef .tc main_arg2) = _
  dsimp only [hostOps0]
  after_results

theorem V1_arg0 (c : Dev nD) : V1 m ρ c main_arg0 = m ((c : Thread nD τ).loc main_arg0) := by
  show StableHlo.after hostOps0 (W0 m ρ c) (Proc.devRef .tc main_arg0) = _
  dsimp only [hostOps0]
  after_results

theorem V1_arg3 (c : Dev nD) : V1 m ρ c main_arg3 = m ((c : Thread nD τ).loc main_arg3) := by
  show StableHlo.after hostOps0 (W0 m ρ c) (Proc.devRef .tc main_arg3) = _
  dsimp only [hostOps0]
  after_results

theorem V1_arg5 (c : Dev nD) : V1 m ρ c main_arg5 = m ((c : Thread nD τ).loc main_arg5) := by
  show StableHlo.after hostOps0 (W0 m ρ c) (Proc.devRef .tc main_arg5) = _
  dsimp only [hostOps0]
  after_results

theorem V1_v0 (c : Dev nD) : (V1 m ρ c main_v0 : Mat 1 128) = asRow (m ((c : Thread nD τ).loc main_arg4)) := by
  show StableHlo.after hostOps0 (W0 m ρ c) (Proc.devRef .tc main_v0) = _
  dsimp only [hostOps0]
  after_results
  exact shapeCast_asRow _ _

/-! ## What the second region finds -/

theorem V3_arg1 (c : Dev nD) : V3 m ρ c main_arg1 = m ((c : Thread nD τ).loc main_arg1) := by
  show StableHlo.after hostOps1 (W2 m ρ c) (Proc.devRef .tc main_arg1) = _
  dsimp only [hostOps1]
  after_results
  rw [W2_of_ne m ρ c main_arg1 (by decide)]
  show StableHlo.after hostOps0 (W0 m ρ c) (Proc.devRef .tc main_arg1) = _
  dsimp only [hostOps0]
  after_results

theorem V3_arg7 (c : Dev nD) : V3 m ρ c main_arg7 = m ((c : Thread nD τ).loc main_arg7) := by
  show StableHlo.after hostOps1 (W2 m ρ c) (Proc.devRef .tc main_arg7) = _
  dsimp only [hostOps1]
  after_results
  rw [W2_of_ne m ρ c main_arg7 (by decide)]
  show StableHlo.after hostOps0 (W0 m ρ c) (Proc.devRef .tc main_arg7) = _
  dsimp only [hostOps0]
  after_results

theorem V3_arg9 (c : Dev nD) : V3 m ρ c main_arg9 = m ((c : Thread nD τ).loc main_arg9) := by
  show StableHlo.after hostOps1 (W2 m ρ c) (Proc.devRef .tc main_arg9) = _
  dsimp only [hostOps1]
  after_results
  rw [W2_of_ne m ρ c main_arg9 (by decide)]
  show StableHlo.after hostOps0 (W0 m ρ c) (Proc.devRef .tc main_arg9) = _
  dsimp only [hostOps0]
  after_results

theorem V3_arg11 (c : Dev nD) : V3 m ρ c main_arg11 = m ((c : Thread nD τ).loc main_arg11) := by
  show StableHlo.after hostOps1 (W2 m ρ c) (Proc.devRef .tc main_arg11) = _
  dsimp only [hostOps1]
  after_results
  rw [W2_of_ne m ρ c main_arg11 (by decide)]
  show StableHlo.after hostOps0 (W0 m ρ c) (Proc.devRef .tc main_arg11) = _
  dsimp only [hostOps0]
  after_results

theorem V3_v2 (c : Dev nD) : (V3 m ρ c main_v2 : Mat 1 128) = asRow (m ((c : Thread nD τ).loc main_arg6)) := by
  show StableHlo.after hostOps1 (W2 m ρ c) (Proc.devRef .tc main_v2) = _
  dsimp only [hostOps1]
  after_results
  rw [W2_of_ne m ρ c main_arg6 (by decide)]
  have e : W1 m ρ c (Proc.devRef .tc main_arg6) = m ((c : Thread nD τ).loc main_arg6) := by
    show StableHlo.after hostOps0 (W0 m ρ c) (Proc.devRef .tc main_arg6) = _
    dsimp only [hostOps0]
    after_results
  rw [e]
  exact shapeCast_asRow _ _

theorem V3_v3 (c : Dev nD) : (V3 m ρ c main_v3 : Mat 1 64) = asRow (m ((c : Thread nD τ).loc main_arg8)) := by
  show StableHlo.after hostOps1 (W2 m ρ c) (Proc.devRef .tc main_v3) = _
  dsimp only [hostOps1]
  after_results
  rw [W2_of_ne m ρ c main_arg8 (by decide)]
  have e : W1 m ρ c (Proc.devRef .tc main_arg8) = m ((c : Thread nD τ).loc main_arg8) := by
    show StableHlo.after hostOps0 (W0 m ρ c) (Proc.devRef .tc main_arg8) = _
    dsimp only [hostOps0]
    after_results
  rw [e]
  exact shapeCast_asRow _ _

theorem V3_v4 (c : Dev nD) : (V3 m ρ c main_v4 : Mat 1 16) = asRow (m ((c : Thread nD τ).loc main_arg10)) := by
  show StableHlo.after hostOps1 (W2 m ρ c) (Proc.devRef .tc main_v4) = _
  dsimp only [hostOps1]
  after_results
  rw [W2_of_ne m ρ c main_arg10 (by decide)]
  have e : W1 m ρ c (Proc.devRef .tc main_arg10) = m ((c : Thread nD τ).loc main_arg10) := by
    show StableHlo.after hostOps0 (W0 m ρ c) (Proc.devRef .tc main_arg10) = _
    dsimp only [hostOps0]
    after_results
  rw [e]
  exact shapeCast_asRow _ _

theorem V3_v5 (c : Dev nD) : (V3 m ρ c main_v5 : Mat 1 10) = asRow (m ((c : Thread nD τ).loc main_arg12)) := by
  show StableHlo.after hostOps1 (W2 m ρ c) (Proc.devRef .tc main_v5) = _
  dsimp only [hostOps1]
  after_results
  rw [W2_of_ne m ρ c main_arg12 (by decide)]
  have e : W1 m ρ c (Proc.devRef .tc main_arg12) = m ((c : Thread nD τ).loc main_arg12) := by
    show StableHlo.after hostOps0 (W0 m ρ c) (Proc.devRef .tc main_arg12) = _
    dsimp only [hostOps0]
    after_results
  rw [e]
  exact shapeCast_asRow _ _

theorem V3_v1 (c : Dev nD) : V3 m ρ c main_v1 = (dat0 (V1 m ρ) c).arrAt 5 cfg0.N := by
  show StableHlo.after hostOps1 (W2 m ρ c) (Proc.devRef .tc main_v1) = _
  dsimp only [hostOps1]
  after_results
  exact W2_arr m ρ c 5

/-! ## The result -/

/-- The network of the launch memory's argument arrays. -/
abbrev network (c : Dev nD) : Mat 10000 10 :=
  classRows (m ((c : Thread nD τ).loc main_arg1))
    (hiddenRows (m ((c : Thread nD τ).loc main_arg2)) (m ((c : Thread nD τ).loc main_arg0)) (m ((c : Thread nD τ).loc main_arg3)) (asRow (m ((c : Thread nD τ).loc main_arg4))) (m ((c : Thread nD τ).loc main_arg5)))
    (asRow (m ((c : Thread nD τ).loc main_arg6))) (m ((c : Thread nD τ).loc main_arg7)) (asRow (m ((c : Thread nD τ).loc main_arg8))) (m ((c : Thread nD τ).loc main_arg9)) (asRow (m ((c : Thread nD τ).loc main_arg10))) (m ((c : Thread nD τ).loc main_arg11)) (asRow (m ((c : Thread nD τ).loc main_arg12)))

/-- The result buffer's contents at the last boundary are the network of the arguments. -/
theorem result_eq (c : Dev nD) : W4 m ρ c (Proc.devRef .tc main_v6) = network m c := by
  refine (W4_arr m ρ c 9).trans ?_
  rw [Stage2.final (V3 m ρ) c]
  unfold Stage2.classesOf
  rw [V3_arg1 m ρ c, V3_v1 m ρ c, V3_v2 m ρ c, V3_arg7 m ρ c, V3_v3 m ρ c, V3_arg9 m ρ c, V3_v4 m ρ c, V3_arg11 m ρ c,
    V3_v5 m ρ c, Stage1.final (V1 m ρ) c]
  unfold Stage1.hiddenOf
  rw [V1_arg2 m ρ c, V1_arg0 m ρ c, V1_arg3 m ρ c, V1_v0 m ρ c, V1_arg5 m ρ c]

end Cert.KernelIdeal.Result

end
-- ==== Proof.RefValue.lean ====
/-
  The reference's result as the same matrix algebra.

  The reference is straight-line host code: five `dot_general`s with dimension numbers `[1] x [0]` (matrix products),
  each bias vector broadcast to a `[1, N]` row and then over the 10000 rows and added, and `tanh`. Read as whole
  functions its composed term is the second stage of the network applied to the first stage taken in the reference's
  order of products, `G · (X · W_s)`.
-/
import proofs.«121009_g7576322310719_cont_9to1c4b_828_14_alg».proof.Proof.Gen.ReferenceIdeal.Read
import proofs.«121009_g7576322310719_cont_9to1c4b_828_14_alg».proof.Proof.Network

set_option maxRecDepth 16384

noncomputable section

namespace Cert.ReferenceIdeal.RefValue

open Cert.ReferenceIdeal Cert.ReferenceIdeal.Gen Cert.MatrixRows Cert.Network
open Idealize.ShloMosaic Idealize.ShloMosaic.TcCoe Idealize.ShloMosaic.ValueIdx Idealize.SL.Sem

/-- The reference's composed term is the network with the first products in the order `G · (X · W_s)`. -/
theorem value_eq (a0 : Mat 10000 128) (a1 a2 : Mat 10000 10000) (a3 : Mat 128 128) (a4 : (⟨1, ![128]⟩ : Shape).Idx → EReal)
    (a5 : Mat 128 128) (a6 : (⟨1, ![128]⟩ : Shape).Idx → EReal) (a7 : Mat 128 64) (a8 : (⟨1, ![64]⟩ : Shape).Idx → EReal)
    (a9 : Mat 64 16) (a10 : (⟨1, ![16]⟩ : Shape).Idx → EReal) (a11 : Mat 16 10) (a12 : (⟨1, ![10]⟩ : Shape).Idx → EReal) :
    Read.val_main_v25 (F := Ideal) a0 a1 a2 a3 a4 a5 a6 a7 a8 a9 a10 a11 a12
      = classRows a1 (hiddenRowsRef a2 a0 a3 (asRow a4) a5) (asRow a6) a7 (asRow a8) a9 (asRow a10) a11 (asRow a12) := by
  rw [← Read.val_main_v25_eq]
  unfold classRows hiddenRowsRef layer
  rw [show dot_S10000x128_S128x128_S10000x128_1_0_0_1_n_n = DotDims.plain 10000 128 128 from rfl,
    show dot_S10000x10000_S10000x128_S10000x128_1_0_0_1_n_n = DotDims.plain 10000 10000 128 from rfl,
    show dot_S10000x128_S128x64_S10000x64_1_0_0_1_n_n = DotDims.plain 10000 128 64 from rfl,
    show dot_S10000x64_S64x16_S10000x16_1_0_0_1_n_n = DotDims.plain 10000 64 16 from rfl,
    show dot_S10000x16_S16x10_S10000x10_1_0_0_1_n_n = DotDims.plain 10000 16 10 from rfl]
  rw [addf_broadcastInDim, addf_broadcastInDim, addf_broadcastInDim, addf_broadcastInDim, addf_broadcastInDim,
    dotGeneral_plain, dotGeneral_plain, dotGeneral_plain, dotGeneral_plain, dotGeneral_plain, dotGeneral_plain,
    dotGeneral_plain]
  rfl

end Cert.ReferenceIdeal.RefValue

end
-- ==== Proof.Finite.lean ====
/-
  From the precondition to real numbers.

  The precondition tests every argument array: `|x| < +∞` at every element, all the tests joined by `and`. For the three
  arrays whose products are re-associated — the gene adjacency, the features and `W_s` — the test is read back: an
  extended real whose absolute value is below `+∞` is neither infinity, so it is a real number.
-/
import proofs.«121009_g7576322310719_cont_9to1c4b_828_14_alg».proof.Pre_finite_inputs
import proofs.«121009_g7576322310719_cont_9to1c4b_828_14_alg».proof.Proof.LibMatrixRows
import Idealize.ShloMosaic.Lib.ReduceAll

set_option maxRecDepth 16384

noncomputable section

namespace Cert.Pre_finite_inputs.Finite

open Cert.Pre_finite_inputs Cert.MatrixRows
open Idealize.ShloMosaic Idealize.ShloMosaic.ValueIdx

variable [Cert.Pre_finite_inputs.Facts]
open Facts

instance : Subsingleton S_.Idx := ⟨fun a b => funext fun d => d.elim0⟩

/-- The word `0x7F800000` is `+∞`. -/
theorem inf_bits : Ideal.ofBits .f32 0x7F800000#32 = (⊤ : EReal) := by simp [Ideal.ofBits, Ideal.ieee]

/-- An extended real whose absolute value is below `+∞` is a real number. -/
theorem real_of_abs_lt_top (x : EReal) (h : Ideal.cmp .olt (max x (-x)) ⊤ = 1#1) : ∃ r : ℝ, x = (r : EReal) := by
  induction x using EReal.rec with
  | bot => simp [Ideal.cmp] at h
  | top => simp [Ideal.cmp] at h
  | coe r => exact ⟨r, rfl⟩

/-- One test of the precondition, read back at an element. -/
theorem real_of_test {s : Shape} {axes : List (Fin s.rank)} (a : FVec Ideal s .f32)
    (hb : S_.BroadcastsInDim s (![] : Fin 0 → Fin s.rank)) (init : IVec S_ 1) (hr : s.ReducesTo axes S_) (hu : 0 < S_.numel)
    (e : Host.reduce IntOp.andi (cmpf .olt (Host.absf a) (broadcastInDim s ![] hb (constant (F := Ideal) S_ .f32 0x7F800000#32)))
      init hr hu ix0 = 1#1) (i : s.Idx) : ∃ r : ℝ, a i = (r : EReal) := by
  have h1 := Host.reduce_andi_all _ init hr hu ix0 e i
  have h2 : Ideal.cmp .olt (max (a i) (-(a i))) (Ideal.ofBits .f32 0x7F800000#32) = 1#1 := h1
  rw [inf_bits] at h2
  exact real_of_abs_lt_top (a i) h2

/-- Under the precondition the features, the gene adjacency and `W_s` hold real numbers. -/
theorem reals (a0 : FVec Ideal S10000x128 .f32) (a1 a2 : FVec Ideal S10000x10000 .f32) (a3 : FVec Ideal S128x128 .f32)
    (a4 : FVec Ideal S128 .f32) (a5 : FVec Ideal S128x128 .f32) (a6 : FVec Ideal S128 .f32) (a7 : FVec Ideal S128x64 .f32)
    (a8 : FVec Ideal S64 .f32) (a9 : FVec Ideal S64x16 .f32) (a10 : FVec Ideal S16 .f32) (a11 : FVec Ideal S16x10 .f32)
    (a12 : FVec Ideal S10 .f32)
    (hpre : fn (F := Ideal) a0 a1 a2 a3 a4 a5 a6 a7 a8 a9 a10 a11 a12 = fun _ => 1#1) :
    AllReal (a0 : Mat 10000 128) ∧ AllReal (a2 : Mat 10000 10000) ∧ AllReal (a3 : Mat 128 128) := by
  have h := congrFun hpre ix0
  dsimp only [fn, fn_part1, fn_part2, fn_part3] at h
  obtain ⟨h, -⟩ := IntOp.andi_eq_one.1 h
  obtain ⟨h, -⟩ := IntOp.andi_eq_one.1 h
  obtain ⟨h, -⟩ := IntOp.andi_eq_one.1 h
  obtain ⟨h, -⟩ := IntOp.andi_eq_one.1 h
  obtain ⟨h, -⟩ := IntOp.andi_eq_one.1 h
  obtain ⟨h, -⟩ := IntOp.andi_eq_one.1 h
  obtain ⟨h, -⟩ := IntOp.andi_eq_one.1 h
  obtain ⟨h, -⟩ := IntOp.andi_eq_one.1 h
  obtain ⟨h, -⟩ := IntOp.andi_eq_one.1 h
  obtain ⟨h, h3⟩ := IntOp.andi_eq_one.1 h
  obtain ⟨h, h2⟩ := IntOp.andi_eq_one.1 h
  obtain ⟨h0, -⟩ := IntOp.andi_eq_one.1 h
  exact ⟨fun i => real_of_test a0 _ _ _ _ h0 i, fun i => real_of_test a2 _ _ _ _ h2 i, fun i => real_of_test a3 _ _ _ _ h3 i⟩

end Cert.Pre_finite_inputs.Finite

end
-- ==== Proof.lean ====
/-
  The two-stage graph network: a row-blocked kernel against its whole-array reference.

  The kernel streams the two 10000 × 10000 adjacency matrices in blocks of 400 rows through two regions. The first
  computes `hidden = tanh ((G · X) · W_s + b_s) · W_f`, the second `tanh (tanh (tanh (A · hidden + b_f) · W1 + b1) · W2 + b2) · W3 + b3`;
  every step after the product with the adjacency acts row by row, so the 25 blocks of rows of each region's output are
  the blocks of rows of one whole-array function (Stage1, Stage2), and the result buffer after the run is the network of
  the argument arrays (KernelRun, KernelValue). The reference computes the same network on whole arrays but takes the
  first products in the order `G · (X · W_s)` (RefValue). At the ideal instance a float is an extended real, where
  re-associating a product of matrices needs distributivity, which fails at the infinities: the precondition — every
  input finite — makes `G`, `X` and `W_s` matrices of real numbers (Finite), over which the product is associative
  (LibMatrixRows, Network). The idealization rewrote nothing, so `preserves` has nothing to state; the two kernels'
  frames are the generated ones and the reference's frame is its generated run with the result dropped.
-/
import proofs.«121009_g7576322310719_cont_9to1c4b_828_14_alg».proof.Defs
import proofs.«121009_g7576322310719_cont_9to1c4b_828_14_alg».proof.Proof.Gen.Kernel
import proofs.«121009_g7576322310719_cont_9to1c4b_828_14_alg».proof.Proof.Gen.Kernel.Skeleton
import proofs.«121009_g7576322310719_cont_9to1c4b_828_14_alg».proof.Proof.Gen.Kernel.Launch
import proofs.«121009_g7576322310719_cont_9to1c4b_828_14_alg».proof.Proof.Gen.Kernel.Points
import proofs.«121009_g7576322310719_cont_9to1c4b_828_14_alg».proof.Proof.Gen.Kernel.Frame
import proofs.«121009_g7576322310719_cont_9to1c4b_828_14_alg».proof.Proof.Gen.KernelIdeal
import proofs.«121009_g7576322310719_cont_9to1c4b_828_14_alg».proof.Proof.Gen.KernelIdeal.Skeleton
import proofs.«121009_g7576322310719_cont_9to1c4b_828_14_alg».proof.Proof.Gen.KernelIdeal.Launch
import proofs.«121009_g7576322310719_cont_9to1c4b_828_14_alg».proof.Proof.Gen.KernelIdeal.Points
import proofs.«121009_g7576322310719_cont_9to1c4b_828_14_alg».proof.Proof.Gen.KernelIdeal.Frame
import proofs.«121009_g7576322310719_cont_9to1c4b_828_14_alg».proof.Proof.Gen.ReferenceIdeal
import proofs.«121009_g7576322310719_cont_9to1c4b_828_14_alg».proof.Proof.Gen.Pre_finite_inputs
import proofs.«121009_g7576322310719_cont_9to1c4b_828_14_alg».proof.Proof.Gen.ReferenceIdeal.Run
import proofs.«121009_g7576322310719_cont_9to1c4b_828_14_alg».proof.Proof.Gen.ReferenceIdeal.Read
import proofs.«121009_g7576322310719_cont_9to1c4b_828_14_alg».proof.Proof.KernelRun
import proofs.«121009_g7576322310719_cont_9to1c4b_828_14_alg».proof.Proof.KernelValue
import proofs.«121009_g7576322310719_cont_9to1c4b_828_14_alg».proof.Proof.RefValue
import proofs.«121009_g7576322310719_cont_9to1c4b_828_14_alg».proof.Proof.Finite
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Both programs end with the network of the argument arrays in their result buffer: the kernel by its two regions'
    blocks of rows, the reference by its composed term, equal once the first products are re-associated over the
    real entries the precondition gives. -/
theorem algebraic : Cert.algebraic_KernelIdeal_ReferenceIdeal := by
  intro m ρ m' ρ' hpre hagree
  refine ⟨fun c => Cert.KernelIdeal.Result.network m c, ?_, ?_⟩
  · exact (θ_run Cert.KernelIdeal.defs _ _).mono
      (fun r h c => ⟨(h c).1.trans (Cert.KernelIdeal.Result.result_eq m ρ c), (h c).2⟩)
      (Cert.KernelIdeal.ResultRun.run m ρ)
  · refine (θ_run Cert.ReferenceIdeal.defs _ _).mono (fun r h c => ⟨?_, (h c).2⟩)
      (Cert.ReferenceIdeal.Value.run (F := Ideal) m' ρ')
    rw [(h c).1, Cert.ReferenceIdeal.Read.val_main_v25_eq, Cert.ReferenceIdeal.RefValue.value_eq]
    obtain ⟨h0, h1, h2, h3, h4, h5, h6, h7, h8, h9, h10, h11, h12⟩ := hagree c
    rw [h0, h1, h2, h3, h4, h5, h6, h7, h8, h9, h10, h11, h12]
    obtain ⟨r0, r2, r3⟩ := Cert.Pre_finite_inputs.Finite.reals _ _ _ _ _ _ _ _ _ _ _ _ _ (hpre c)
    show _ = Cert.Network.classRows _ (Cert.Network.hiddenRows _ _ _ _ _) _ _ _ _ _ _ _
    rw [Cert.Network.hiddenRows_eq_ref _ _ _ _ _ r2 r0 r3]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
